-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S10x64 : Shape := ⟨2, ![10, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S10x64 : S_.BroadcastsInDim S10x64 (![] : Fin 0 → Fin S10x64.rank)
  reducesTo_S10x64_S_d0_1 : S10x64.ReducesTo [0, 1] S_

variable [Facts]

def fn_part1 {F : FTy → Type} [FloatOps F] (main_arg5 : FVec F S128x64 .f32) (main_arg6 : FVec F S64 .f32) (main_arg7 : FVec F S10x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S10x64 .f32 := Host.absf main_arg7
  let main_cst_10 : FVec F S_ .f32 := constant S_ .f32 0x7F800000#32
  let main_v30 : FVec F S10x64 .f32 := broadcastInDim S10x64 ![] bcast_S_S10x64 main_cst_10
  let main_v31 : IVec S10x64 1 := cmpf .olt main_v29 main_v30
  let main_c_11 : IVec S_ 1 := constantI S_ 1 1#1
  let main_v32 : IVec S_ 1 := (fun x v => Host.reduce IntOp.andi x v reducesTo_S10x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x64 .f32) (main_arg6 : FVec F S64 .f32) (main_arg7 : FVec F S10x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S10x64 : Shape := ⟨2, ![10, 64]⟩
abbrev S1x1600000 : Shape := ⟨2, ![1, 1600000]⟩
abbrev S5000x128 : Shape := ⟨2, ![5000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S5000x64 : Shape := ⟨2, ![5000, 64]⟩
abbrev S1x64 : Shape := ⟨2, ![1, 64]⟩
abbrev S1600000x64 : Shape := ⟨2, ![1600000, 64]⟩
abbrev S100000x10 : Shape := ⟨2, ![100000, 10]⟩
abbrev S5000x10 : Shape := ⟨2, ![5000, 10]⟩
abbrev S5000 : Shape := ⟨1, ![5000]⟩
abbrev S5000x1 : Shape := ⟨2, ![5000, 1]⟩
abbrev S10 : Shape := ⟨1, ![10]⟩
abbrev S64x10 : Shape := ⟨2, ![64, 10]⟩
abbrev S1x10 : Shape := ⟨2, ![1, 10]⟩

abbrev nBuf : Space → Nat
  | .hbm => 47
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S10x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x1, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S1600000x1, .f32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x64, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S10x64, .f32⟩
  | .local _ .vmem, ⟨15, _⟩ => ⟨S5000x10, .f32⟩
  | .local _ .vmem, ⟨16, _⟩ => ⟨S5000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  inb_S10x64_S10x64_0_0 : ∀ a, (![0, 0] : Fin 2 → Nat) a + S10x64.size a ≤ S10x64.size a
  h_S10x64 : 0 < S10x64.numel
  reduces_S5000x64_S5000 : S5000x64.Reduces [1] S5000
  shapeCasts_S5000_S5000x1 : S5000.ShapeCasts S5000x1
  reduces_S10x64_S10 : S10x64.Reduces [1] S10
  transposes_S10x64_p1_0_S64x10 : S10x64.Transposes [1, 0] S64x10
  shapeCasts_S10_S1x10 : S10.ShapeCasts S1x10
  broadcasts_S5000x1_S5000x10 : S5000x1.Broadcasts S5000x10
  broadcasts_S1x10_S5000x10 : S1x10.Broadcasts S5000x10
  reduces_S5000x10_S5000 : S5000x10.Reduces [1] S5000
  inb_S5000x10_S5000x10_0_0 : ∀ a, (![0, 0] : Fin 2 → Nat) a + S5000x10.size a ≤ S5000x10.size a
  h_S5000x10 : 0 < S5000x10.numel
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x10_S5000x10_1_0_0_1_n_n_wf : DotDims.WF S5000x64 S64x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10x64.size a ≤ S10x64.size a
  hwx2_1 : ∀ i : grid2.Coords, EltTy.bits .f32 = 32 ∨ (Rect.block (s := S10x64) S10x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x10.size a ≤ S100000x10.size a
  hwx2_2 : ∀ i : grid2.Coords, EltTy.bits .f32 = 32 ∨ (Rect.block (s := S100000x10) S5000x10.size (cc2_transform_2 i) (hinb2_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S10x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S10x64 : Shape := ⟨2, ![10, 64]⟩
abbrev S1x1600000 : Shape := ⟨2, ![1, 1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S1x64 : Shape := ⟨2, ![1, 64]⟩
abbrev S1600000x64 : Shape := ⟨2, ![1600000, 64]⟩
abbrev S100000 : Shape := ⟨1, ![100000]⟩
abbrev S100000x1 : Shape := ⟨2, ![100000, 1]⟩
abbrev S10 : Shape := ⟨1, ![10]⟩
abbrev S1x10 : Shape := ⟨2, ![1, 10]⟩
abbrev S100000x10 : Shape := ⟨2, ![100000, 10]⟩
abbrev S64x10 : Shape := ⟨2, ![64, 10]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S10x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x1, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S1600000x1, .f32⟩
  | .hbm, ⟨49, _⟩ => ⟨S1600000x64, .f32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000, .f32⟩
  | .hbm, ⟨58, _⟩ => ⟨S100000x1, .f32⟩
  | .hbm, ⟨59, _⟩ => ⟨S10x64, .f32⟩
  | .hbm, ⟨60, _⟩ => ⟨S_, .f32⟩
  | .hbm, ⟨61, _⟩ => ⟨S10, .f32⟩
  | .hbm, ⟨62, _⟩ => ⟨S1x10, .f32⟩
  | .hbm, ⟨63, _⟩ => ⟨S100000x10, .f32⟩
  | .hbm, ⟨64, _⟩ => ⟨S100000x10, .f32⟩
  | .hbm, ⟨65, _⟩ => ⟨S100000x10, .f32⟩
  | .hbm, ⟨66, _⟩ => ⟨S64x10, .f32⟩
  | .hbm, ⟨67, _⟩ => ⟨S100000x10, .f32⟩
  | .hbm, ⟨68, _⟩ => ⟨S_, .f32⟩
  | .hbm, ⟨69, _⟩ => ⟨S100000x10, .f32⟩
  | .hbm, ⟨70, _⟩ => ⟨S100000x10, .f32⟩
  | .hbm, ⟨71, _⟩ => ⟨S100000x10, .f32⟩
  | .hbm, ⟨72, _⟩ => ⟨S_, .f32⟩
  | .hbm, ⟨73, _⟩ => ⟨S100000x10, .f32⟩
  | .hbm, ⟨74, _⟩ => ⟨S100000x10, .f32⟩
  | .hbm, ⟨75, _⟩ => ⟨S_, .f32⟩
  | .hbm, ⟨76, _⟩ => ⟨S100000x10, .f32⟩
  | .hbm, ⟨77, _⟩ => ⟨S100000x10, .f32⟩
  | .hbm, ⟨78, _⟩ => ⟨S_, .f32⟩
  | .hbm, ⟨79, _⟩ => ⟨S100000x10, .f32⟩
  | .hbm, ⟨80, _⟩ => ⟨S100000x10, .f32⟩
  | .hbm, ⟨81, _⟩ => ⟨S_, .f32⟩
  | .hbm, ⟨82, _⟩ => ⟨S100000x10, .f32⟩
  | .hbm, ⟨83, _⟩ => ⟨S100000x10, .f32⟩
  | .hbm, ⟨84, _⟩ => ⟨S_, .f32⟩
  | .hbm, ⟨85, _⟩ => ⟨S100000x10, .f32⟩
  | .hbm, ⟨86, _⟩ => ⟨S100000x10, .f32⟩
  | .hbm, ⟨87, _⟩ => ⟨S_, .f32⟩
  | .hbm, ⟨88, _⟩ => ⟨S100000x10, .f32⟩
  | .hbm, ⟨89, _⟩ => ⟨S100000x10, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S100000x10, .f32⟩
  | .hbm, ⟨94, _⟩ => ⟨S100000x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_call0_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_1 : Ref sig .tc := ⟨.hbm, 39, rfl⟩
abbrev main_v26 : Ref sig .tc := ⟨.hbm, 40, rfl⟩
abbrev main_v27 : Ref sig .tc := ⟨.hbm, 41, rfl⟩
abbrev main_c_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  reducesTo_S10x64_S10_d1 : S10x64.ReducesTo [1] S10
  bcast_S10_S1x10_1 : S10.BroadcastsInDim S1x10 (![1] : Fin 1 → Fin S1x10.rank)
  bcast_S100000x1_S100000x10_0_1 : S100000x1.BroadcastsInDim S100000x10 (![0, 1] : Fin 2 → Fin S100000x10.rank)
  bcast_S1x10_S100000x10_0_1 : S1x10.BroadcastsInDim S100000x10 (![0, 1] : Fin 2 → Fin S100000x10.rank)
  transposes_S10x64_S64x10_1_0 : S10x64.Transposes [1, 0] S64x10
  bcast_S_S100000x10 : S_.BroadcastsInDim S100000x10 (![] : Fin 0 → Fin S100000x10.rank)
  reducesTo_S100000x10_S100000_d1 : S100000x10.ReducesTo [1] S100000
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x10_S100000x10_1_0_0_1_n_n_wf : DotDims.WF S100000x64 S64x10 S100000x10 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.Spec.lean ====
/-
  The mathematics both programs compute, index by index, on the extended reals.

  A two-layer graph convolution followed by a Student-t soft assignment. With `x` the node features, `W1, b1, W2, b2`
  the two dense layers, and `P` the edge propagation (gather the source rows, scale by the edge weight, add into the
  destination rows — the same host operations in both programs, so it is never opened here):

    h  = P (dense1 x W1 b1)                 dense1 a w b [r, j] = (∑ k, a[r, k] · w[k, j]) + b[j]
    z  = P (dense2 h W2 b2)                 dense2 a w b [r, j] = (∑ k, max a[r, k] 0 · w[k, j]) + b[j]
    q  = assign z mu                        assign z mu [r, j]  = kern (sqd r j) / ∑ j', kern (sqd r j')

  where `sqd r j = (∑ k, z[r,k]²) + (∑ k, mu[j,k]²) − 2 · ∑ k, z[r,k] · mu[j,k]` is the squared distance by expansion and
  `kern s = (1 / (1 + s / 1 + ε))² / 2`. A sum over a row is the same whether it is taken over a whole array or over a
  block of 5000 rows of it, which is all the tiling changes.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- A rank-2 array of extended reals with literal extents. -/
abbrev Arr2 (a b : Nat) := (⟨2, ![a, b]⟩ : Shape).Idx → EReal
/-- A rank-1 array of extended reals with a literal extent. -/
abbrev Arr1 (a : Nat) := (⟨1, ![a]⟩ : Shape).Idx → EReal

/-- The first dense layer, `a · w + b`: entry `[r, j]` is row `r` of `a` against column `j` of `w`, plus `b[j]`. -/
def dense1 (a : Arr2 100000 128) (w : Arr2 128 128) (b : Arr1 128) : Arr2 100000 128 :=
  fun i => (∑ k : Fin 128, a (ix2 (i 0) k) * w (ix2 k (i 1))) + b (ix1 (i 1))

/-- The second dense layer on the rectified input, `max a 0 · w + b`. The zero is the f32 zero word's value. -/
def dense2 (a : Arr2 100000 128) (w : Arr2 128 64) (b : Arr1 64) : Arr2 100000 64 :=
  fun i => (∑ k : Fin 128, max (a (ix2 (i 0) k)) (Ideal.ofBits .f32 0x00000000#32) * w (ix2 k (i 1))) + b (ix1 (i 1))

/-- The f32 words the assignment uses, as the extended reals they denote: 1, 2 and the f32 nearest 1e-8. -/
abbrev one : EReal := Ideal.ofBits .f32 0x3F800000#32
abbrev two : EReal := Ideal.ofBits .f32 0x40000000#32
abbrev eps : EReal := Ideal.ofBits .f32 0x322BCC77#32

/-- Squared distance of row `r` of `z` to centre `j` of `mu`, by the expansion `|z|² + |mu|² − 2 z·mu`. -/
def sqd (z : Arr2 100000 64) (mu : Arr2 10 64) (r : Fin 100000) (j : Fin 10) : EReal :=
  ((∑ k : Fin 64, z (ix2 r k) * z (ix2 r k)) + (∑ k : Fin 64, mu (ix2 j k) * mu (ix2 j k)))
    - two * (∑ k : Fin 64, z (ix2 r k) * mu (ix2 j k))

/-- The Student-t kernel of a squared distance, unnormalised: `(1 / (1 + s / 1 + ε))² / 2`, the square taken as a
    product. -/
def kern (s : EReal) : EReal :=
  Ideal.div (Ideal.div one ((one + Ideal.div s one) + eps) * Ideal.div one ((one + Ideal.div s one) + eps)) two

/-- The soft assignment: each row's kernels normalised by their sum over the ten centres. -/
def assign (z : Arr2 100000 64) (mu : Arr2 10 64) : Arr2 100000 10 :=
  fun i => Ideal.div (kern (sqd z mu (i 0) (i 1))) (∑ j : Fin 10, kern (sqd z mu (i 0) j))

end Cert.Gcn

end
-- ==== Proof.Region0.lean ====
/-
  The first dense layer's region: its output array is `dense1` of its input arrays.

  The grid has 20 points; point `t` stages rows `5000 t … 5000 t + 4999` of the input, the whole weight matrix and the
  whole bias, and writes back rows `5000 t … 5000 t + 4999` of the output. Entry `(p, j)` of what a point computes is the
  sum over `k` of the input block at `(p, k)` times the weight at `(k, j)`, plus the bias at `j` — the narrowing of the
  operands before the product is the identity on the extended reals, and the accumulator starts at zero. Row `p` of the
  block is row `5000 t + p` of the array, so each written block is the corresponding block of `dense1` of the arrays as
  the region finds them, and since the 20 blocks tile the 100000 rows the output array ends holding `dense1` of them.
-/
import proofs.«125401_j46634754900398_2_alg».proof.Proof.Gen.KernelIdeal.Frame
import proofs.«125401_j46634754900398_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Gcn.Layer1

open Cert.KernelIdeal Cert.KernelIdeal.Gen

/-! ## One point's arithmetic at an index -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, at `(p, j)`: row `p` of the left operand against column `j` of the
    right one. -/
theorem matmul_at (l : FVec Ideal S5000x128 .bf16) (r : FVec Ideal S128x128 .bf16) (p : Fin 5000) (j : Fin 128) :
    FloatOps.matmul dot_S5000x128_S128x128_S5000x128_1_0_0_1_n_n none l r (constant S5000x128 .f32 0x00000000#32) (ix2 p j)
      = ∑ k : Fin 128, l (ix2 p k) * r (ix2 k j) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (rhs_row _ _).trans hk
    | ⟨1, _⟩ => exact rhs_col _ _)
  rw [el, er]

/-- What a point stores at `(p, j)`, from its three loaded blocks. -/
theorem pay_at (x0 : Vec Ideal S5000x128 .f32) (x1 : Vec Ideal S128x128 .f32) (x2 : Vec Ideal S128 .f32) (p : Fin 5000) (j : Fin 128) :
    k0_pay1 x0 x1 x2 (ix2 p j) = (∑ k : Fin 128, x0 (ix2 p k) * x1 (ix2 k j)) + x2 (ix1 j) := by
  unfold k0_pay1
  rw [addf_apply]
  simp only [matmul]
  rw [matmul_at, broadcastTo_1b_ab_apply, shapeCast_a_1a_apply]
  rfl

/-! ## The blocks of the array -/

theorem hz : (![0, 0] : Fin 2 → Nat) = fun _ => 0 := funext fun a => by fin_cases a <;> rfl
theorem hz1 : (![0] : Fin 1 → Nat) = fun _ => 0 := funext fun a => by fin_cases a; rfl

/-- The index maps over the grid: input rows and output rows move with the point, everything else stays at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Row `p` of the input block at point `t` is row `5000 t + p` of the input array. -/
theorem in_rows (c : Dev nD) (t : Fin cfg0.N) (p : Fin 5000) (k : Fin 128) (r : Fin 100000) (hr : r.val = t.val * 5000 + p.val) :
    iblk0 V c 0 t (ix2 p k) = V c main_arg0 (ix2 r k) := by
  obtain ⟨e0, e1, -⟩ := idx_facts t
  unfold iblk0
  rw [View.read_apply]
  show V c main_arg0 _ = V c main_arg0 _
  refine congrArg (V c main_arg0 : S100000x128.Idx → Elt Ideal .f32) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight block at every point is the whole weight matrix. -/
theorem in_weight (c : Dev nD) (t : Fin cfg0.N) (k : Fin 128) (j : Fin 128) :
    iblk0 V c 1 t (ix2 k j) = V c main_arg3 (ix2 k j) := by
  obtain ⟨-, -, e2, e3, -⟩ := idx_facts t
  unfold iblk0
  rw [View.read_apply]
  show V c main_arg3 _ = V c main_arg3 _
  refine congrArg (V c main_arg3 : S128x128.Idx → Elt Ideal .f32) (funext fun a => Fin.ext ?_)
  match a with
  | ⟨0, _⟩ => show win0_1.index t (0 : Fin 2) * 128 + 1 * k.val = k.val; omega
  | ⟨1, _⟩ => show win0_1.index t (1 : Fin 2) * 128 + 1 * j.val = j.val; omega

/-- The bias block at every point is the whole bias. -/
theorem in_bias (c : Dev nD) (t : Fin cfg0.N) (j : Fin 128) :
    iblk0 V c 2 t (ix1 j) = V c main_arg4 (ix1 j) := by
  obtain ⟨-, -, -, -, e4, -⟩ := idx_facts t
  unfold iblk0
  rw [View.read_apply]
  show V c main_arg4 _ = V c main_arg4 _
  refine congrArg (V c main_arg4 : S128.Idx → Elt Ideal .f32) (funext fun a => Fin.ext ?_)
  match a with
  | ⟨0, _⟩ => show win0_2.index t (0 : Fin 1) * 128 + 1 * j.val = j.val; omega

/-- What point `t` writes back is block `t` of `dense1` of the arrays as the region finds them. -/
theorem flushed_eq (c : Dev nD) (t : Fin cfg0.N) :
    (dat0 (F := Ideal) V c).flushed 3 t
      = ((cfg0.win 3).blk t).view.read (Elt Ideal) (dense1 (V c main_arg0) (V c main_arg3) (V c main_arg4)) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz, View.ld_unit_zero (S := S128) hz1]
  obtain ⟨e0, e1, e2, e3, e4, e5, e6⟩ := idx_facts t
  funext y
  obtain ⟨p, j, rfl⟩ : ∃ (p : Fin 5000) (j : Fin 128), y = ix2 p j := ⟨y 0, y 1, eq_ix2 y⟩
  refine (pay_at _ _ _ p j).trans ?_
  have hN : t.val < 20 := (show cfg0.N = 20 from N_0) ▸ t.isLt
  have hp : p.val < 5000 := p.isLt
  have hemb : ((cfg0.win 3).blk t).view.emb (ix2 p j) = ix2 (⟨t.val * 5000 + p.val, by omega⟩ : Fin 100000) j := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * j.val = j.val; omega
  rw [View.read_apply, hemb]
  unfold dense1
  rw [in_bias V c t j]
  refine congrArg₂ (· + ·) (Finset.sum_congr rfl fun k _ => ?_) rfl
  rw [in_rows V c t p k ⟨t.val * 5000 + p.val, by omega⟩ rfl, in_weight V c t k j]

/-- An index of the output array is in point `t`'s block iff its row is among the block's 5000 rows. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v4).slice (win0_3.rect t)).set ↔ _
  rw [View.set_slice_whole, Rect.mem_set_unit]
  exact Iff.rfl

/-- Every index of the output array is in the block of the point its row falls to, `row / 5000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 5000 < cfg0.N := by rw [show cfg0.N = 20 from N_0]; omega
  obtain ⟨-, -, -, -, -, e5, e6⟩ := idx_facts ⟨(i 0).val / 5000, hlt⟩
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e5]; show (i 0).val / 5000 * 5000 ≤ (i 0).val ∧ (i 0).val < (i 0).val / 5000 * 5000 + 5000; omega
  | ⟨1, _⟩ =>
    show win0_3.index ⟨(i 0).val / 5000, hlt⟩ (1 : Fin 2) * 128 ≤ (i 1).val ∧ (i 1).val < win0_3.index ⟨(i 0).val / 5000, hlt⟩ (1 : Fin 2) * 128 + 128
    rw [e6]; omega

/-- The region's output array after its run: `dense1` of its three input arrays as the region finds them. -/
theorem array (c : Dev nD) :
    (dat0 (F := Ideal) V c).arrAt 3 cfg0.N = dense1 (V c main_arg0) (V c main_arg3) (V c main_arg4) :=
  (dat0 (F := Ideal) V c).arrAt_eq_of_cover 3 _ (fun t _ => flushed_eq V c t) cover

end Cert.Gcn.Layer1

end
-- ==== Proof.Region1.lean ====
/-
  The second dense layer's region (rectifier fused): its output array is `dense2` of its input arrays.

  The grid has 20 points; point `t` stages rows `5000 t … 5000 t + 4999` of the input, the whole weight matrix and the
  whole bias, and writes back rows `5000 t … 5000 t + 4999` of the output. Entry `(p, j)` of what a point computes is the
  sum over `k` of the rectified input block (its maximum with zero) at `(p, k)` times the weight at `(k, j)`, plus the bias at `j` — the narrowing of the
  operands before the product is the identity on the extended reals, and the accumulator starts at zero. Row `p` of the
  block is row `5000 t + p` of the array, so each written block is the corresponding block of `dense2` of the arrays as
  the region finds them, and since the 20 blocks tile the 100000 rows the output array ends holding `dense2` of them.
-/
import proofs.«125401_j46634754900398_2_alg».proof.Proof.Gen.KernelIdeal.Frame
import proofs.«125401_j46634754900398_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Gcn.Layer2

open Cert.KernelIdeal Cert.KernelIdeal.Gen

/-! ## One point's arithmetic at an index -/

theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The matrix product into a zero accumulator, at `(p, j)`: row `p` of the left operand against column `j` of the
    right one. -/
theorem matmul_at (l : FVec Ideal S5000x128 .bf16) (r : FVec Ideal S128x64 .bf16) (p : Fin 5000) (j : Fin 64) :
    FloatOps.matmul dot_S5000x128_S128x64_S5000x64_1_0_0_1_n_n none l r (constant S5000x64 .f32 0x00000000#32) (ix2 p j)
      = ∑ k : Fin 128, l (ix2 p k) * r (ix2 k j) := by
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p j) ((ValueIdx.contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x64_S5000x64_1_0_0_1_n_n.rhsIdx (ix2 p j) ((ValueIdx.contrEquiv1 dot_S5000x128_S128x64_S5000x64_1_0_0_1_n_n 128 rfl rfl).symm k) = ix2 k j := funext fun a => Fin.ext (by
    match a with
    | ⟨0, _⟩ => exact (rhs_row _ _).trans hk
    | ⟨1, _⟩ => exact rhs_col _ _)
  rw [el, er]

/-- What a point stores at `(p, j)`, from its three loaded blocks. -/
theorem pay_at (x0 : Vec Ideal S5000x128 .f32) (x1 : Vec Ideal S128x64 .f32) (x2 : Vec Ideal S64 .f32) (p : Fin 5000) (j : Fin 64) :
    k1_pay1 x0 x1 x2 (ix2 p j) = (∑ k : Fin 128, max (x0 (ix2 p k)) (Ideal.ofBits .f32 0x00000000#32) * x1 (ix2 k j)) + x2 (ix1 j) := by
  unfold k1_pay1
  rw [addf_apply]
  simp only [matmul]
  rw [shapeCast_self, matmul_at, broadcastTo_1b_ab_apply, shapeCast_a_1a_apply]
  rfl

/-! ## The blocks of the array -/

theorem hz : (![0, 0] : Fin 2 → Nat) = fun _ => 0 := funext fun a => by fin_cases a <;> rfl
theorem hz1 : (![0] : Fin 1 → Nat) = fun _ => 0 := funext fun a => by fin_cases a; rfl

/-- The index maps over the grid: input rows and output rows move with the point, everything else stays at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- Row `p` of the input block at point `t` is row `5000 t + p` of the input array. -/
theorem in_rows (c : Dev nD) (t : Fin cfg1.N) (p : Fin 5000) (k : Fin 128) (r : Fin 100000) (hr : r.val = t.val * 5000 + p.val) :
    iblk1 V c 0 t (ix2 p k) = V c main_v17 (ix2 r k) := by
  obtain ⟨e0, e1, -⟩ := idx_facts t
  unfold iblk1
  rw [View.read_apply]
  show V c main_v17 _ = V c main_v17 _
  refine congrArg (V c main_v17 : S100000x128.Idx → Elt Ideal .f32) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The weight block at every point is the whole weight matrix. -/
theorem in_weight (c : Dev nD) (t : Fin cfg1.N) (k : Fin 128) (j : Fin 64) :
    iblk1 V c 1 t (ix2 k j) = V c main_arg5 (ix2 k j) := by
  obtain ⟨-, -, e2, e3, -⟩ := idx_facts t
  unfold iblk1
  rw [View.read_apply]
  show V c main_arg5 _ = V c main_arg5 _
  refine congrArg (V c main_arg5 : S128x64.Idx → Elt Ideal .f32) (funext fun a => Fin.ext ?_)
  match a with
  | ⟨0, _⟩ => show win1_1.index t (0 : Fin 2) * 128 + 1 * k.val = k.val; omega
  | ⟨1, _⟩ => show win1_1.index t (1 : Fin 2) * 64 + 1 * j.val = j.val; omega

/-- The bias block at every point is the whole bias. -/
theorem in_bias (c : Dev nD) (t : Fin cfg1.N) (j : Fin 64) :
    iblk1 V c 2 t (ix1 j) = V c main_arg6 (ix1 j) := by
  obtain ⟨-, -, -, -, e4, -⟩ := idx_facts t
  unfold iblk1
  rw [View.read_apply]
  show V c main_arg6 _ = V c main_arg6 _
  refine congrArg (V c main_arg6 : S64.Idx → Elt Ideal .f32) (funext fun a => Fin.ext ?_)
  match a with
  | ⟨0, _⟩ => show win1_2.index t (0 : Fin 1) * 64 + 1 * j.val = j.val; omega

/-- What point `t` writes back is block `t` of `dense2` of the arrays as the region finds them. -/
theorem flushed_eq (c : Dev nD) (t : Fin cfg1.N) :
    (dat1 (F := Ideal) V c).flushed 3 t
      = ((cfg1.win 3).blk t).view.read (Elt Ideal) (dense2 (V c main_v17) (V c main_arg5) (V c main_arg6)) := by
  show (cfg1.win 3).cut (grid1.coords t) ((dat1 (F := Ideal) V c).after 3 t) = _
  rw [after1_3]
  unfold out1_3
  rw [View.canon_unit_zero hz]
  simp only [View.ld_unit_zero (S := S5000x128) hz, View.ld_unit_zero (S := S128x64) hz, View.ld_unit_zero (S := S64) hz1]
  obtain ⟨e0, e1, e2, e3, e4, e5, e6⟩ := idx_facts t
  funext y
  obtain ⟨p, j, rfl⟩ : ∃ (p : Fin 5000) (j : Fin 64), y = ix2 p j := ⟨y 0, y 1, eq_ix2 y⟩
  refine (pay_at _ _ _ p j).trans ?_
  have hN : t.val < 20 := (show cfg1.N = 20 from N_1) ▸ t.isLt
  have hp : p.val < 5000 := p.isLt
  have hemb : ((cfg1.win 3).blk t).view.emb (ix2 p j) = ix2 (⟨t.val * 5000 + p.val, by omega⟩ : Fin 100000) j := by
    funext a; apply Fin.ext
    match a with
    | ⟨0, _⟩ => show win1_3.index t (0 : Fin 2) * 5000 + 1 * p.val = t.val * 5000 + p.val; omega
    | ⟨1, _⟩ => show win1_3.index t (1 : Fin 2) * 64 + 1 * j.val = j.val; omega
  rw [View.read_apply, hemb]
  unfold dense2
  rw [in_bias V c t j]
  refine congrArg₂ (· + ·) (Finset.sum_congr rfl fun k _ => ?_) rfl
  rw [in_rows V c t p k ⟨t.val * 5000 + p.val, by omega⟩ rfl, in_weight V c t k j]

/-- An index of the output array is in point `t`'s block iff its row is among the block's 5000 rows. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v18).slice (win1_3.rect t)).set ↔ _
  rw [View.set_slice_whole, Rect.mem_set_unit]
  exact Iff.rfl

/-- Every index of the output array is in the block of the point its row falls to, `row / 5000`. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hlt : (i 0).val / 5000 < cfg1.N := by rw [show cfg1.N = 20 from N_1]; omega
  obtain ⟨-, -, -, -, -, e5, e6⟩ := idx_facts ⟨(i 0).val / 5000, hlt⟩
  refine ⟨⟨(i 0).val / 5000, hlt⟩, flush1_3 _, ?_⟩
  rw [mem_blk]
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [e5]; show (i 0).val / 5000 * 5000 ≤ (i 0).val ∧ (i 0).val < (i 0).val / 5000 * 5000 + 5000; omega
  | ⟨1, _⟩ =>
    show win1_3.index ⟨(i 0).val / 5000, hlt⟩ (1 : Fin 2) * 64 ≤ (i 1).val ∧ (i 1).val < win1_3.index ⟨(i 0).val / 5000, hlt⟩ (1 : Fin 2) * 64 + 64
    rw [e6]; omega

/-- The region's output array after its run: `dense2` of its three input arrays as the region finds them. -/
theorem array (c : Dev nD) :
    (dat1 (F := Ideal) V c).arrAt 3 cfg1.N = dense2 (V c main_v17) (V c main_arg5) (V c main_arg6) :=
  (dat1 (F := Ideal) V c).arrAt_eq_of_cover 3 _ (fun t _ => flushed_eq V c t) cover

end Cert.Gcn.Layer2

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.Region2.lean ====
/-
  The soft-assignment region: its output array is `assign z mu` of the two arrays it reads.

  The grid has 20 points; point `t` stages rows `5000 t … 5000 t + 4999` of `z` and the whole array `mu` of ten centres,
  and writes back rows `5000 t … 5000 t + 4999` of the output. Entry `(p, j)` of what a point computes is the Student-t
  kernel of the squared distance of the block's row `p` to centre `j` — the distance by the expansion
  `|z|² + |mu|² − 2 z·mu`, the row sums kept as a column and as a row and broadcast, the cross term as a product with the
  transposed centres into a zero accumulator — divided by the sum of that row's ten kernels. Everything an entry needs
  lies in its own row, so the block of 5000 rows computes what the whole array would, and since the 20 blocks tile the
  100000 rows the output array ends holding `assign z mu`.
-/
import proofs.«125401_j46634754900398_2_alg».proof.Proof.Spec
import proofs.«125401_j46634754900398_2_alg».proof.Proof.LibKeepdimsColumn
import proofs.«125401_j46634754900398_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Region2

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open Cert.Gcn.Lib

/-! ## The product with the transposed centres, read at an index

(The sums along the lanes and the column-shaped casts and broadcasts are read by the keepdims-column lemmas.) -/

theorem lhs_coord0 (i : S5000x10.Idx) (q : dot_S5000x64_S64x10_S5000x10_1_0_0_1_n_n.contr.Idx) :
    (dot_S5000x64_S64x10_S5000x10_1_0_0_1_n_n.lhsIdx i q 0).val = (i 0).val := by
  unfold DotDims.lhsIdx
  rw [dif_neg (show ¬(0 : Fin S5000x64.rank) ∈ dot_S5000x64_S64x10_S5000x10_1_0_0_1_n_n.lhsBatch by decide), dif_pos (show (0 : Fin S5000x64.rank) ∈ dot_S5000x64_S64x10_S5000x10_1_0_0_1_n_n.lhsNonContracting by decide)]
  rfl

theorem rhs_coord1 (i : S5000x10.Idx) (q : dot_S5000x64_S64x10_S5000x10_1_0_0_1_n_n.contr.Idx) :
    (dot_S5000x64_S64x10_S5000x10_1_0_0_1_n_n.rhsIdx i q 1).val = (i 1).val := by
  unfold DotDims.rhsIdx
  rw [dif_neg (show ¬(1 : Fin S64x10.rank) ∈ dot_S5000x64_S64x10_S5000x10_1_0_0_1_n_n.rhsBatch by decide), dif_pos (show (1 : Fin S64x10.rank) ∈ dot_S5000x64_S64x10_S5000x10_1_0_0_1_n_n.rhsNonContracting by decide)]
  rfl

/-- The block's product with a `[64, 10]` array into the zero accumulator, at `[p, j]`, is the sum over the 64 lanes of
    row `p` of the block against column `j` of the array. -/
theorem matmul_zero_apply (prec : Option ContractPrecision) (x : FVec Ideal S5000x64 .f32) (y : FVec Ideal S64x10 .f32)
    (p : Fin 5000) (j : Fin 10) :
    matmul dot_S5000x64_S64x10_S5000x10_1_0_0_1_n_n prec x y (constant S5000x10 .f32 0x00000000#32) (ix2 p j)
      = ∑ k : Fin 64, x (ix2 p k) * y (ix2 k j) := by
  refine (Ideal.matmul_constant_zero_apply dot_S5000x64_S64x10_S5000x10_1_0_0_1_n_n prec x y (ix2 p j)).trans ?_
  rw [← Equiv.sum_comp (ValueIdx.contrEquiv1 dot_S5000x64_S64x10_S5000x10_1_0_0_1_n_n 64 rfl rfl).symm]
  refine Finset.sum_congr rfl fun k _ => ?_
  have hk := ValueIdx.contrEquiv1_symm_val dot_S5000x64_S64x10_S5000x10_1_0_0_1_n_n 64 rfl rfl k
  have el : dot_S5000x64_S64x10_S5000x10_1_0_0_1_n_n.lhsIdx (ix2 p j) ((ValueIdx.contrEquiv1 dot_S5000x64_S64x10_S5000x10_1_0_0_1_n_n 64 rfl rfl).symm k) = ix2 p k := funext fun a => Fin.ext (by
    match a with
    | ⟨0, _⟩ => exact lhs_coord0 _ _
    | ⟨1, _⟩ => exact (dot_S5000x64_S64x10_S5000x10_1_0_0_1_n_n.lhsIdx_val_of_single rfl _ _).trans hk)
  have er : dot_S5000x64_S64x10_S5000x10_1_0_0_1_n_n.rhsIdx (ix2 p j) ((ValueIdx.contrEquiv1 dot_S5000x64_S64x10_S5000x10_1_0_0_1_n_n 64 rfl rfl).symm k) = ix2 k j := funext fun a => Fin.ext (by
    match a with
    | ⟨0, _⟩ => exact (dot_S5000x64_S64x10_S5000x10_1_0_0_1_n_n.rhsIdx_val_of_single rfl _ _).trans hk
    | ⟨1, _⟩ => exact rhs_coord1 _ _)
  rw [el, er]

/-! ## The body's arithmetic, in two stages

The block of squared distances, then the kernels normalised along each row. Cutting the body's one term here lets each
stage be read at an index over a variable input. -/

/-- Squared distance of row `p` of a block `x0` of 5000 rows to centre `j`, by the expansion. -/
def blockSqd (x0 : FVec Ideal S5000x64 .f32) (x1 : FVec Ideal S10x64 .f32) (p : Fin 5000) (j : Fin 10) : EReal :=
  ((∑ k : Fin 64, x0 (ix2 p k) * x0 (ix2 p k)) + (∑ k : Fin 64, x1 (ix2 j k) * x1 (ix2 j k)))
    - two * (∑ k : Fin 64, x0 (ix2 p k) * x1 (ix2 j k))

/-- The body's first stage: the `[5000, 10]` array of squared distances, as the body computes it (row sums kept as a
    column and as a row, broadcast and added, minus twice the product with the transposed centres). -/
def distStage (x0 : FVec Ideal S5000x64 .f32) (x1 : FVec Ideal S10x64 .f32) : FVec Ideal S5000x10 .f32 :=
  subf
    (addf
      (broadcastTo S5000x10 (shapeCast S5000x1 (multiReduction .add [1] S5000
        (mulf (shapeCast S5000x64 x0 shapeCasts_S5000x64_S5000x64) (shapeCast S5000x64 x0 shapeCasts_S5000x64_S5000x64))
        0x00000000#32 reduces_S5000x64_S5000 (.inl rfl) rfl) shapeCasts_S5000_S5000x1) broadcasts_S5000x1_S5000x10)
      (broadcastTo S5000x10 (shapeCast S1x10 (multiReduction .add [1] S10 (mulf x1 x1)
        0x00000000#32 reduces_S10x64_S10 (.inl rfl) rfl) shapeCasts_S10_S1x10) broadcasts_S1x10_S5000x10))
    (mulf (broadcast S5000x10 (Scalar.ofBits (F := Ideal) .f32 0x40000000#32))
      (matmul dot_S5000x64_S64x10_S5000x10_1_0_0_1_n_n (some .fp32) (shapeCast S5000x64 x0 shapeCasts_S5000x64_S5000x64)
        (transpose S64x10 [1, 0] x1 transposes_S10x64_p1_0_S64x10) (constant S5000x10 .f32 0x00000000#32)))

/-- The body's second stage on an array `d` of squared distances: the kernel of each entry, divided by the sum of its
    row's kernels (kept as a column and broadcast back). -/
def normStage (d : FVec Ideal S5000x10 .f32) : FVec Ideal S5000x10 .f32 :=
  divf (fun i => kern (d i))
    (broadcastTo S5000x10 (shapeCast S5000x1 (multiReduction .add [1] S5000 (fun i => kern (d i))
      0x00000000#32 reduces_S5000x10_S5000 (.inl rfl) rfl) shapeCasts_S5000_S5000x1) broadcasts_S5000x1_S5000x10)

/-- The body's arithmetic is the second stage of the first. -/
theorem pay_stages (x0 : Vec Ideal S5000x64 .f32) (x1 : Vec Ideal S10x64 .f32) :
    k2_pay1 (F := Ideal) x0 x1 = normStage (distStage x0 x1) := rfl

/-- The first stage at `[p, j]` is the squared distance of the block's row `p` to centre `j`. -/
theorem distStage_apply (x0 : FVec Ideal S5000x64 .f32) (x1 : FVec Ideal S10x64 .f32) (p : Fin 5000) (j : Fin 10) :
    distStage x0 x1 (ix2 p j) = blockSqd x0 x1 p j := by
  unfold distStage
  rw [shapeCast_self]
  show (broadcastTo S5000x10 _ broadcasts_S5000x1_S5000x10 (ix2 p j) + broadcastTo S5000x10 _ broadcasts_S1x10_S5000x10 (ix2 p j))
      - two * matmul dot_S5000x64_S64x10_S5000x10_1_0_0_1_n_n (some .fp32) x0 _ (constant S5000x10 .f32 0x00000000#32) (ix2 p j) = _
  rw [broadcastTo_a1_ab_apply, shapeCast_a_a1_apply, rowsum_apply, broadcastTo_1b_ab_apply, shapeCast_a_1a_apply,
    rowsum_apply, matmul_zero_apply]
  unfold blockSqd
  refine congrArg₂ (fun a b : EReal => a - b) rfl
    (congrArg (fun a : EReal => two * a) (Finset.sum_congr rfl fun k _ => ?_))
  exact congrArg (fun y : EReal => x0 (ix2 p k) * y) (transpose_ix2_apply x1 transposes_S10x64_p1_0_S64x10 k j)

/-- The second stage at `[p, j]`: the kernel of entry `[p, j]` over the sum of row `p`'s ten kernels. -/
theorem normStage_apply (d : FVec Ideal S5000x10 .f32) (p : Fin 5000) (j : Fin 10) :
    normStage d (ix2 p j) = Ideal.div (kern (d (ix2 p j))) (∑ j' : Fin 10, kern (d (ix2 p j'))) := by
  unfold normStage
  show Ideal.div (kern (d (ix2 p j))) (broadcastTo S5000x10 _ broadcasts_S5000x1_S5000x10 (ix2 p j)) = _
  rw [broadcastTo_a1_ab_apply, shapeCast_a_a1_apply, rowsum_apply]

/-- THE PAYLOAD AT AN INDEX: entry `[p, j]` of what the body stores is the soft assignment of the block's row `p` to
    centre `j`. -/
theorem pay_apply (x0 : Vec Ideal S5000x64 .f32) (x1 : Vec Ideal S10x64 .f32) (p : Fin 5000) (j : Fin 10) :
    k2_pay1 (F := Ideal) x0 x1 (ix2 p j)
      = Ideal.div (kern (blockSqd x0 x1 p j)) (∑ j' : Fin 10, kern (blockSqd x0 x1 p j')) := by
  rw [pay_stages, normStage_apply]
  simp only [distStage_apply]

/-! ## The blocks of the arrays -/

theorem hz : (![0, 0] : Fin 2 → Nat) = fun _ => 0 := funext fun a => by fin_cases a <;> rfl

/-- The index maps over the grid: the rows of `z` and of the output move with the point, the centres stay whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block's squared distances are the arrays' when the block's row `p` is the array's row `r` and the second block
    is the whole array of centres. -/
theorem blockSqd_eq (b0 : FVec Ideal S5000x64 .f32) (b1 : FVec Ideal S10x64 .f32) (z : Arr2 100000 64) (mu : Arr2 10 64)
    (p : Fin 5000) (r : Fin 100000) (h0 : ∀ k : Fin 64, b0 (ix2 p k) = z (ix2 r k))
    (h1 : ∀ (j : Fin 10) (k : Fin 64), b1 (ix2 j k) = mu (ix2 j k)) (j : Fin 10) :
    blockSqd b0 b1 p j = sqd z mu r j := by
  unfold blockSqd sqd
  refine congrArg₂ (fun a b : EReal => a - b)
    (congrArg₂ (fun a b : EReal => a + b) (Finset.sum_congr rfl fun k _ => ?_) (Finset.sum_congr rfl fun k _ => ?_))
    (congrArg (fun a : EReal => two * a) (Finset.sum_congr rfl fun k _ => ?_))
  · rw [h0 k]
  · rw [h1 j k]
  · rw [h0 k, h1 j k]

variable (V : (c : Dev nD) → (b : Ref sig .tc) → Buf (Elt Ideal) ((c : Thread nD τ).loc b))

/-- Row `p` of the block of `z` at point `t` is row `5000 t + p` of `z`. -/
theorem in_rows (c : Dev nD) (t : Fin cfg2.N) (p : Fin 5000) (k : Fin 64) (r : Fin 100000) (hr : r.val = t.val * 5000 + p.val) :
    iblk2 V c 0 t (ix2 p k) = V c main_v31 (ix2 r k) := by
  obtain ⟨e0, e1, -⟩ := idx_facts t
  unfold iblk2
  rw [View.read_apply]
  show V c main_v31 _ = V c main_v31 _
  refine congrArg (V c main_v31 : S100000x64.Idx → Elt Ideal .f32) (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- The block of centres at every point is the whole array of centres. -/
theorem in_centres (c : Dev nD) (t : Fin cfg2.N) (j : Fin 10) (k : Fin 64) :
    iblk2 V c 1 t (ix2 j k) = V c main_arg7 (ix2 j k) := by
  obtain ⟨-, -, e2, e3, -⟩ := idx_facts t
  unfold iblk2
  rw [View.read_apply]
  show V c main_arg7 _ = V c main_arg7 _
  refine congrArg (V c main_arg7 : S10x64.Idx → Elt Ideal .f32) (funext fun a => Fin.ext ?_)
  match a with
  | ⟨0, _⟩ => show win2_1.index t (0 : Fin 2) * 10 + 1 * j.val = j.val; omega
  | ⟨1, _⟩ => show win2_1.index t (1 : Fin 2) * 64 + 1 * k.val = k.val; omega

/-- What point `t` writes back is block `t` of the soft assignment of the arrays as the region finds them. -/
theorem flushed_eq (c : Dev nD) (t : Fin cfg2.N) :
    (dat2 (F := Ideal) V c).flushed 2 t
      = ((cfg2.win 2).blk t).view.read (Elt Ideal) (assign (V c main_v31) (V c main_arg7)) := by
  show (cfg2.win 2).cut (grid2.coords t) ((dat2 (F := Ideal) V c).after 2 t) = _
  rw [after2_2]
  unfold out2_2
  rw [View.canon_unit_zero hz]
  simp only [View.ld_unit_zero (S := S5000x64) hz, View.ld_unit_zero (S := S10x64) hz]
  obtain ⟨e0, e1, e2, e3, e4, e5⟩ := idx_facts t
  funext y
  obtain ⟨p, j, rfl⟩ : ∃ (p : Fin 5000) (j : Fin 10), y = ix2 p j := ⟨y 0, y 1, eq_ix2 y⟩
  refine (pay_apply _ _ p j).trans ?_
  have hN : t.val < 20 := (show cfg2.N = 20 from N_2) ▸ t.isLt
  have hp : p.val < 5000 := p.isLt
  have hemb : ((cfg2.win 2).blk t).view.emb (ix2 p j) = ix2 (⟨t.val * 5000 + p.val, by omega⟩ : Fin 100000) j := by
    funext a; apply Fin.ext
    match a with
    | ⟨0, _⟩ => show win2_2.index t (0 : Fin 2) * 5000 + 1 * p.val = t.val * 5000 + p.val; omega
    | ⟨1, _⟩ => show win2_2.index t (1 : Fin 2) * 10 + 1 * j.val = j.val; omega
  rw [View.read_apply, hemb]
  have hsq : ∀ j' : Fin 10, blockSqd (iblk2 V c 0 t) (iblk2 V c 1 t) p j'
      = sqd (V c main_v31) (V c main_arg7) (⟨t.val * 5000 + p.val, by omega⟩ : Fin 100000) j' :=
    fun j' => blockSqd_eq (iblk2 V c 0 t) (iblk2 V c 1 t) (V c main_v31) (V c main_arg7) p ⟨t.val * 5000 + p.val, by omega⟩
      (fun k => in_rows V c t p k ⟨t.val * 5000 + p.val, by omega⟩ rfl) (fun j'' k => in_centres V c t j'' k) j'
  show Ideal.div (kern _) (∑ j' : Fin 10, kern _)
    = Ideal.div (kern (sqd (V c main_v31) (V c main_arg7) (⟨t.val * 5000 + p.val, by omega⟩ : Fin 100000) j))
        (∑ j' : Fin 10, kern (sqd (V c main_v31) (V c main_arg7) (⟨t.val * 5000 + p.val, by omega⟩ : Fin 100000) j'))
  rw [hsq j]
  refine congrArg (fun y : EReal => Ideal.div (kern (sqd (V c main_v31) (V c main_arg7) (⟨t.val * 5000 + p.val, by omega⟩ : Fin 100000) j)) y)
    (Finset.sum_congr rfl fun j' _ => ?_)
  rw [hsq j']

/-- An index of the output array is in point `t`'s block iff its row is among the block's 5000 rows. -/
theorem mem_blk (t : Fin cfg2.N) (i : S100000x10.Idx) :
    i ∈ ((cfg2.win 2).blk t).view.set ↔ ∀ a : Fin 2, win2_2.index t a * S5000x10.size a ≤ (i a).val ∧ (i a).val < win2_2.index t a * S5000x10.size a + S5000x10.size a := by
  show i ∈ ((View.whole main_v32).slice (win2_2.rect t)).set ↔ _
  rw [View.set_slice_whole, Rect.mem_set_unit]
  exact Iff.rfl

/-- Every index of the output array is in the block of the point its row falls to, `row / 5000`. -/
theorem cover (i : S100000x10.Idx) :
    ∃ t : Fin cfg2.N, (cfg2.win 2).flush t = true ∧ i ∈ ((cfg2.win 2).blk t).view.set := by
  have hi0 : (i 0).val < 100000 := (i 0).isLt
  have hi1 : (i 1).val < 10 := (i 1).isLt
  have hlt : (i 0).val / 5000 < cfg2.N := by rw [show cfg2.N = 20 from N_2]; omega
  obtain ⟨-, -, -, -, e4, e5⟩ := idx_facts ⟨(i 0).val / 5000, hlt⟩
  refine ⟨⟨(i 0).val / 5000, hlt⟩, flush2_2 _, ?_⟩
  rw [mem_blk]
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hlt⟩ (1 : Fin 2) * 10 ≤ (i 1).val ∧ (i 1).val < win2_2.index ⟨(i 0).val / 5000, hlt⟩ (1 : Fin 2) * 10 + 10
    rw [e5]; omega

/-- The region's output array after its run: the soft assignment of the array `z` to the centres, both as the region
    finds them. -/
theorem region2_array (c : Dev nD) :
    (dat2 (F := Ideal) V c).arrAt 2 cfg2.N = assign (V c main_v31) (V c main_arg7) :=
  (dat2 (F := Ideal) V c).arrAt_eq_of_cover 2 _ (fun t _ => flushed_eq V c t) cover

end Cert.Gcn.Region2

end
-- ==== Proof.RefStages.lean ====
/-
  The reference's two dense layers, read at an index.

  The reference computes `x · W1 + b1` as a whole-array product, a bias broadcast along the rows, and a sum; and
  `max h 0 · W2 + b2` likewise on the propagated, rectified features. Read at `(r, j)`, the product is the sum over `k`
  of the left operand at `(r, k)` times the right at `(k, j)`, and the broadcast bias is the bias at `j`: the functions
  `dense1` and `dense2` of the specification. What the second layer is applied to — the propagated features — stays
  an opaque array here.
-/
import proofs.«125401_j46634754900398_2_alg».proof.Proof.Gen.ReferenceIdeal.Read
import proofs.«125401_j46634754900398_2_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem
open Idealize.ShloMosaic.ValueIdx

namespace Cert.Gcn.RefLayers

open Cert.ReferenceIdeal Cert.ReferenceIdeal.Read

/-- The reference's first layer is `dense1` of its three arguments. -/
theorem dense1_eq (x0 : (⟨S100000x128, .f32⟩ : BufTy).Contents (Elt Ideal)) (x3 : (⟨S128x128, .f32⟩ : BufTy).Contents (Elt Ideal)) (x4 : (⟨S128, .f32⟩ : BufTy).Contents (Elt Ideal)) :
    val_main_v7 (F := Ideal) x0 x3 x4 = dense1 x0 x3 x4 := by
  funext i
  obtain ⟨r, j, rfl⟩ : ∃ (r : Fin 100000) (j : Fin 128), i = ix2 r j := ⟨i 0, i 1, eq_ix2 i⟩
  have hl : ∀ k : Fin 128, lidx_main_v4 (ix2 r j) k = ix2 r k := fun k => funext fun a => Fin.ext (by
    match a with | ⟨0, _⟩ => rfl | ⟨1, _⟩ => rfl)
  have hr : ∀ k : Fin 128, ridx_main_v4 (ix2 r j) k = ix2 k j := fun k => funext fun a => Fin.ext (by
    match a with | ⟨0, _⟩ => rfl | ⟨1, _⟩ => rfl)
  have hb : idx_main_v5 (idx_main_v6 (ix2 r j)) = ix1 j := funext fun a => Fin.ext (by
    match a with | ⟨0, _⟩ => rfl)
  rw [val_main_v7_apply, val_main_v4_apply, val_main_v6_apply, val_main_v5_apply]
  simp only [hl, hr, hb]
  rfl

/-- The reference's second layer is `dense2` of the propagated features and its two arguments. -/
theorem dense2_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) :
    val_main_v25 (F := Ideal) x0 x1 x2 x3 x4 x5 x6 = dense2 (val_main_v20 (F := Ideal) x0 x1 x2 x3 x4) x5 x6 := by
  funext i
  obtain ⟨r, j, rfl⟩ : ∃ (r : Fin 100000) (j : Fin 64), i = ix2 r j := ⟨i 0, i 1, eq_ix2 i⟩
  have hl : ∀ k : Fin 128, lidx_main_v22 (ix2 r j) k = ix2 r k := fun k => funext fun a => Fin.ext (by
    match a with | ⟨0, _⟩ => rfl | ⟨1, _⟩ => rfl)
  have hr : ∀ k : Fin 128, ridx_main_v22 (ix2 r j) k = ix2 k j := fun k => funext fun a => Fin.ext (by
    match a with | ⟨0, _⟩ => rfl | ⟨1, _⟩ => rfl)
  have hb : idx_main_v23 (idx_main_v24 (ix2 r j)) = ix1 j := funext fun a => Fin.ext (by
    match a with | ⟨0, _⟩ => rfl)
  rw [val_main_v25_apply, val_main_v22_apply, val_main_v24_apply, val_main_v23_apply, hb]
  unfold dense2
  show (_ : EReal) + _ = _
  refine congrArg₂ (· + ·) (Finset.sum_congr rfl fun k _ => ?_) rfl
  rw [hl k, hr k]
  refine congrArg (fun y : EReal => y * (x5 (ix2 k j) : EReal)) ?_
  rw [val_main_v21_apply, val_main_call0_v0_apply]
  rfl

end Cert.Gcn.RefLayers

end
-- ==== Proof.Propagate.lean ====
/-
  The edge propagation, carried as one function, and the features both programs end with.

  Between the dense layers both programs run the same host operations: the source index of each edge is wrapped when
  negative, the source node's row is gathered and scaled by the edge weight, and the scaled rows are added into the
  destination nodes' rows of a zero array. Which rows are read and written depends on the edge list's values, so this is
  never read at an index: it is named once per feature width (`prop1` for 128 columns, `prop2` for 64) as a function of
  the features, the edge list and the edge weights, and both programs are shown to apply it to equal features.

  With it, the second-layer features are `feats = prop2 (dense2 (prop1 (dense1 x W1 b1)) W2 b2)`, and the reference's two
  results are `feats` and `assign feats mu`.
-/
import proofs.«125401_j46634754900398_2_alg».proof.Proof.Gen.ReferenceIdeal.Read
import proofs.«125401_j46634754900398_2_alg».proof.Proof.Spec
import proofs.«125401_j46634754900398_2_alg».proof.Proof.RefStages

set_option maxRecDepth 16384

noncomputable section

open Idealize.ShloMosaic Idealize.ShloMosaic.TcCoe Idealize.SL.Sem

namespace Cert.Gcn

open Cert.ReferenceIdeal Cert.ReferenceIdeal.Read

/-- Propagation of 128-column features along the edges: gather the (wrapped) source rows, scale by the edge weights, add
    into the destination rows of a zero array. -/
def prop1 (h : FVec Ideal S100000x128 .f32) (x1 : (⟨S2x1600000, .i32⟩ : BufTy).Contents (Elt Ideal)) (x2 : (⟨S1600000, .f32⟩ : BufTy).Contents (Elt Ideal)) : FVec Ideal S100000x128 .f32 :=
  Host.scatterAdd (F := Ideal) scatter_S100000x128_S1600000x1_S1600000x128_1_0_0_1 (val_main_v18 (F := Ideal)) (val_main_v19 (F := Ideal) x1)
    (mulf (F := Ideal) (Host.gather gather_S100000x128_S1600000x1_S1600000x128_1_0_n_n_0_1_1128 h (val_main_v13 (F := Ideal) x1)) (val_main_v16 (F := Ideal) x2))

/-- The same propagation of 64-column features. -/
def prop2 (h : FVec Ideal S100000x64 .f32) (x1 : (⟨S2x1600000, .i32⟩ : BufTy).Contents (Elt Ideal)) (x2 : (⟨S1600000, .f32⟩ : BufTy).Contents (Elt Ideal)) : FVec Ideal S100000x64 .f32 :=
  Host.scatterAdd (F := Ideal) scatter_S100000x64_S1600000x1_S1600000x64_1_0_0_1 (val_main_v36 (F := Ideal)) (val_main_v37 (F := Ideal) x1)
    (mulf (F := Ideal) (Host.gather gather_S100000x64_S1600000x1_S1600000x64_1_0_n_n_0_1_164 h (val_main_v31 (F := Ideal) x1)) (val_main_v34 (F := Ideal) x2))

/-- The reference propagates its first layer by `prop1`. -/
theorem v20_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) :
    val_main_v20 (F := Ideal) x0 x1 x2 x3 x4 = prop1 (val_main_v7 (F := Ideal) x0 x3 x4) x1 x2 := by
  unfold val_main_v20 val_main_v17 val_main_v14 prop1
  rfl

/-- The reference propagates its second layer by `prop2`. -/
theorem v38_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) :
    val_main_v38 (F := Ideal) x0 x1 x2 x3 x4 x5 x6 = prop2 (val_main_v25 (F := Ideal) x0 x1 x2 x3 x4 x5 x6) x1 x2 := by
  unfold val_main_v38 val_main_v35 val_main_v32 prop2
  rfl

/-- The second-layer features after propagation, as one function of the seven arguments they depend on. -/
def feats (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) : FVec Ideal S100000x64 .f32 :=
  prop2 (dense2 (prop1 (dense1 x0 x3 x4) x1 x2) x5 x6) x1 x2

/-- The reference's first result is `feats` of its arguments. -/
theorem ref_feats (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) :
    val_main_v38 (F := Ideal) x0 x1 x2 x3 x4 x5 x6 = feats x0 x1 x2 x3 x4 x5 x6 := by
  rw [v38_eq, RefLayers.dense2_eq, v20_eq, RefLayers.dense1_eq]
  rfl

end Cert.Gcn

end
-- ==== Proof.Boundary.lean ====
/-
  The contents of the buffers the program reads, at each of its six segment boundaries, as functions of the launch memory.

  The boundaries' contents are a fold: a stretch of host operations applies them to what it finds, a region leaves its
  inputs alone and its output at what its write-backs leave. Walking the fold back from the last boundary:
    * an argument, and the two halves of the edge list (sliced out by the first stretch), are never written again, so at
      every later boundary they hold what they held at launch (for the halves: the launch edge list's two rows);
    * the first region's output is `dense1` of the three arguments it reads; the second stretch propagates it along the
      edges (`prop1`); the second region's output is `dense2` of that and its two arguments; the third stretch propagates
      it (`prop2`): these are the features `feats`, the program's first result, which the last region reads and leaves
      alone; the last region's output, the second result, is `assign` of the features and the centres.
  The host operations here are the reference's own, record for record, so each stretch's result IS `prop1` / `prop2` of
  what it is applied to, by unfolding the names.
-/
import proofs.«125401_j46634754900398_2_alg».proof.Proof.KernelRun
import proofs.«125401_j46634754900398_2_alg».proof.Proof.Region0
import proofs.«125401_j46634754900398_2_alg».proof.Proof.Region1
import proofs.«125401_j46634754900398_2_alg».proof.Proof.Region2
import proofs.«125401_j46634754900398_2_alg».proof.Proof.Propagate
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.Gcn.Boundary

open Cert.KernelIdeal Cert.KernelIdeal.Gen

/-- One stretch of host operations read at one buffer: peel the operations off one by one. -/
macro "host_step" ops:ident : tactic => `(tactic| (dsimp only [$ops:ident]; after_results <;> rfl))

variable (m : (ℓ : Loc nD τ sig) → Buf (Elt Ideal) ℓ) (ρ : Dev nD → PrngReg) (c : Dev nD)

/-! ## After the first stretch (the edge list's two rows sliced out) -/

theorem at1_arg0 : W1 m ρ c (Proc.devRef .tc main_arg0) = m ((c : Thread nD τ).loc main_arg0) := by
  show StableHlo.after hostOps0 (W0 m ρ c) (Proc.devRef .tc main_arg0) = _
  host_step hostOps0

theorem at1_arg2 : W1 m ρ c (Proc.devRef .tc main_arg2) = m ((c : Thread nD τ).loc main_arg2) := by
  show StableHlo.after hostOps0 (W0 m ρ c) (Proc.devRef .tc main_arg2) = _
  host_step hostOps0

theorem at1_arg3 : W1 m ρ c (Proc.devRef .tc main_arg3) = m ((c : Thread nD τ).loc main_arg3) := by
  show StableHlo.after hostOps0 (W0 m ρ c) (Proc.devRef .tc main_arg3) = _
  host_step hostOps0

theorem at1_arg4 : W1 m ρ c (Proc.devRef .tc main_arg4) = m ((c : Thread nD τ).loc main_arg4) := by
  show StableHlo.after hostOps0 (W0 m ρ c) (Proc.devRef .tc main_arg4) = _
  host_step hostOps0

theorem at1_arg5 : W1 m ρ c (Proc.devRef .tc main_arg5) = m ((c : Thread nD τ).loc main_arg5) := by
  show StableHlo.after hostOps0 (W0 m ρ c) (Proc.devRef .tc main_arg5) = _
  host_step hostOps0

theorem at1_arg6 : W1 m ρ c (Proc.devRef .tc main_arg6) = m ((c : Thread nD τ).loc main_arg6) := by
  show StableHlo.after hostOps0 (W0 m ρ c) (Proc.devRef .tc main_arg6) = _
  host_step hostOps0

theorem at1_arg7 : W1 m ρ c (Proc.devRef .tc main_arg7) = m ((c : Thread nD τ).loc main_arg7) := by
  show StableHlo.after hostOps0 (W0 m ρ c) (Proc.devRef .tc main_arg7) = _
  host_step hostOps0

theorem at1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  host_step hostOps0

theorem at1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  host_step hostOps0

/-! ## After the first region -/

theorem at2_v1 : W2 m ρ c (Proc.devRef .tc main_v1) = Cert.ReferenceIdeal.Read.val_main_v1 (F := Ideal) (m ((c : Thread nD τ).loc main_arg1)) :=
  (W2_of_ne m ρ c main_v1 (by decide)).trans (at1_v1 m ρ c)

theorem at2_v3 : W2 m ρ c (Proc.devRef .tc main_v3) = Cert.ReferenceIdeal.Read.val_main_v3 (F := Ideal) (m ((c : Thread nD τ).loc main_arg1)) :=
  (W2_of_ne m ρ c main_v3 (by decide)).trans (at1_v3 m ρ c)

theorem at2_arg2 : W2 m ρ c (Proc.devRef .tc main_arg2) = m ((c : Thread nD τ).loc main_arg2) :=
  (W2_of_ne m ρ c main_arg2 (by decide)).trans (at1_arg2 m ρ c)

theorem at2_arg5 : W2 m ρ c (Proc.devRef .tc main_arg5) = m ((c : Thread nD τ).loc main_arg5) :=
  (W2_of_ne m ρ c main_arg5 (by decide)).trans (at1_arg5 m ρ c)

theorem at2_arg6 : W2 m ρ c (Proc.devRef .tc main_arg6) = m ((c : Thread nD τ).loc main_arg6) :=
  (W2_of_ne m ρ c main_arg6 (by decide)).trans (at1_arg6 m ρ c)

theorem at2_arg7 : W2 m ρ c (Proc.devRef .tc main_arg7) = m ((c : Thread nD τ).loc main_arg7) :=
  (W2_of_ne m ρ c main_arg7 (by decide)).trans (at1_arg7 m ρ c)

/-- The first region's output: the first dense layer of the launch arguments. -/
theorem at2_v4 : W2 m ρ c (Proc.devRef .tc main_v4) = dense1 (m ((c : Thread nD τ).loc main_arg0)) (m ((c : Thread nD τ).loc main_arg3)) (m ((c : Thread nD τ).loc main_arg4)) := by
  refine (W2_arr m ρ c 3).trans ?_
  rw [Layer1.array (V1 m ρ) c]
  show dense1 (W1 m ρ c (Proc.devRef .tc main_arg0)) (W1 m ρ c (Proc.devRef .tc main_arg3)) (W1 m ρ c (Proc.devRef .tc main_arg4)) = _
  rw [at1_arg0, at1_arg3, at1_arg4]

/-! ## After the second stretch (the first propagation) -/

theorem at3_arg5 : W3 m ρ c (Proc.devRef .tc main_arg5) = m ((c : Thread nD τ).loc main_arg5) := by
  refine Eq.trans (?_ : _ = W2 m ρ c (Proc.devRef .tc main_arg5)) (at2_arg5 m ρ c)
  show StableHlo.after hostOps1 (W2 m ρ c) (Proc.devRef .tc main_arg5) = _
  host_step hostOps1

theorem at3_arg6 : W3 m ρ c (Proc.devRef .tc main_arg6) = m ((c : Thread nD τ).loc main_arg6) := by
  refine Eq.trans (?_ : _ = W2 m ρ c (Proc.devRef .tc main_arg6)) (at2_arg6 m ρ c)
  show StableHlo.after hostOps1 (W2 m ρ c) (Proc.devRef .tc main_arg6) = _
  host_step hostOps1

theorem at3_v1 : W3 m ρ c (Proc.devRef .tc main_v1) = Cert.ReferenceIdeal.Read.val_main_v1 (F := Ideal) (m ((c : Thread nD τ).loc main_arg1)) := by
  refine Eq.trans (?_ : _ = W2 m ρ c (Proc.devRef .tc main_v1)) (at2_v1 m ρ c)
  show StableHlo.after hostOps1 (W2 m ρ c) (Proc.devRef .tc main_v1) = _
  host_step hostOps1

theorem at3_v3 : W3 m ρ c (Proc.devRef .tc main_v3) = Cert.ReferenceIdeal.Read.val_main_v3 (F := Ideal) (m ((c : Thread nD τ).loc main_arg1)) := by
  refine Eq.trans (?_ : _ = W2 m ρ c (Proc.devRef .tc main_v3)) (at2_v3 m ρ c)
  show StableHlo.after hostOps1 (W2 m ρ c) (Proc.devRef .tc main_v3) = _
  host_step hostOps1

theorem at3_arg2 : W3 m ρ c (Proc.devRef .tc main_arg2) = m ((c : Thread nD τ).loc main_arg2) := by
  refine Eq.trans (?_ : _ = W2 m ρ c (Proc.devRef .tc main_arg2)) (at2_arg2 m ρ c)
  show StableHlo.after hostOps1 (W2 m ρ c) (Proc.devRef .tc main_arg2) = _
  host_step hostOps1

theorem at3_arg7 : W3 m ρ c (Proc.devRef .tc main_arg7) = m ((c : Thread nD τ).loc main_arg7) := by
  refine Eq.trans (?_ : _ = W2 m ρ c (Proc.devRef .tc main_arg7)) (at2_arg7 m ρ c)
  show StableHlo.after hostOps1 (W2 m ρ c) (Proc.devRef .tc main_arg7) = _
  host_step hostOps1

set_option maxHeartbeats 2000000 in
/-- The second stretch applied to whatever the first region left: the propagation of that. -/
theorem at3_v17_of (a : Buf (Elt Ideal) ((c : Thread nD τ).loc main_v4)) (ha : W2 m ρ c (Proc.devRef .tc main_v4) = a) :
    W3 m ρ c (Proc.devRef .tc main_v17) = prop1 a (m ((c : Thread nD τ).loc main_arg1)) (m ((c : Thread nD τ).loc main_arg2)) := by
  show StableHlo.after hostOps1 (W2 m ρ c) (Proc.devRef .tc main_v17) = _
  dsimp only [hostOps1]
  after_results_simp
  rw [ha, at2_v1, at2_v3, at2_arg2]
  rfl

/-- The second stretch's result: the first layer propagated along the edges. -/
theorem at3_v17 : W3 m ρ c (Proc.devRef .tc main_v17) = prop1 (dense1 (m ((c : Thread nD τ).loc main_arg0)) (m ((c : Thread nD τ).loc main_arg3)) (m ((c : Thread nD τ).loc main_arg4))) (m ((c : Thread nD τ).loc main_arg1)) (m ((c : Thread nD τ).loc main_arg2)) :=
  at3_v17_of m ρ c _ (at2_v4 m ρ c)

/-! ## After the second region -/

theorem at4_v1 : W4 m ρ c (Proc.devRef .tc main_v1) = Cert.ReferenceIdeal.Read.val_main_v1 (F := Ideal) (m ((c : Thread nD τ).loc main_arg1)) :=
  (W4_of_ne m ρ c main_v1 (by decide)).trans (at3_v1 m ρ c)

theorem at4_v3 : W4 m ρ c (Proc.devRef .tc main_v3) = Cert.ReferenceIdeal.Read.val_main_v3 (F := Ideal) (m ((c : Thread nD τ).loc main_arg1)) :=
  (W4_of_ne m ρ c main_v3 (by decide)).trans (at3_v3 m ρ c)

theorem at4_arg2 : W4 m ρ c (Proc.devRef .tc main_arg2) = m ((c : Thread nD τ).loc main_arg2) :=
  (W4_of_ne m ρ c main_arg2 (by decide)).trans (at3_arg2 m ρ c)

theorem at4_arg7 : W4 m ρ c (Proc.devRef .tc main_arg7) = m ((c : Thread nD τ).loc main_arg7) :=
  (W4_of_ne m ρ c main_arg7 (by decide)).trans (at3_arg7 m ρ c)

/-- The second region's output: the second dense layer of the propagated first layer. -/
theorem at4_v18 : W4 m ρ c (Proc.devRef .tc main_v18) = dense2 (prop1 (dense1 (m ((c : Thread nD τ).loc main_arg0)) (m ((c : Thread nD τ).loc main_arg3)) (m ((c : Thread nD τ).loc main_arg4))) (m ((c : Thread nD τ).loc main_arg1)) (m ((c : Thread nD τ).loc main_arg2))) (m ((c : Thread nD τ).loc main_arg5)) (m ((c : Thread nD τ).loc main_arg6)) := by
  refine (W4_arr m ρ c 3).trans ?_
  rw [Layer2.array (V3 m ρ) c]
  show dense2 (W3 m ρ c (Proc.devRef .tc main_v17)) (W3 m ρ c (Proc.devRef .tc main_arg5)) (W3 m ρ c (Proc.devRef .tc main_arg6)) = _
  rw [at3_v17, at3_arg5, at3_arg6]

/-! ## After the third stretch (the second propagation) -/

theorem at5_arg7 : W5 m ρ c (Proc.devRef .tc main_arg7) = m ((c : Thread nD τ).loc main_arg7) := by
  refine Eq.trans (?_ : _ = W4 m ρ c (Proc.devRef .tc main_arg7)) (at4_arg7 m ρ c)
  show StableHlo.after hostOps2 (W4 m ρ c) (Proc.devRef .tc main_arg7) = _
  host_step hostOps2

set_option maxHeartbeats 2000000 in
/-- The third stretch applied to whatever the second region left: the propagation of that. -/
theorem at5_v31_of (a : Buf (Elt Ideal) ((c : Thread nD τ).loc main_v18)) (ha : W4 m ρ c (Proc.devRef .tc main_v18) = a) :
    W5 m ρ c (Proc.devRef .tc main_v31) = prop2 a (m ((c : Thread nD τ).loc main_arg1)) (m ((c : Thread nD τ).loc main_arg2)) := by
  show StableHlo.after hostOps2 (W4 m ρ c) (Proc.devRef .tc main_v31) = _
  dsimp only [hostOps2]
  after_results_simp
  rw [ha, at4_v1, at4_v3, at4_arg2]
  rfl

/-- The third stretch's result: the second layer propagated along the edges — the features. -/
theorem at5_v31 : W5 m ρ c (Proc.devRef .tc main_v31) = prop2 (dense2 (prop1 (dense1 (m ((c : Thread nD τ).loc main_arg0)) (m ((c : Thread nD τ).loc main_arg3)) (m ((c : Thread nD τ).loc main_arg4))) (m ((c : Thread nD τ).loc main_arg1)) (m ((c : Thread nD τ).loc main_arg2))) (m ((c : Thread nD τ).loc main_arg5)) (m ((c : Thread nD τ).loc main_arg6))) (m ((c : Thread nD τ).loc main_arg1)) (m ((c : Thread nD τ).loc main_arg2)) :=
  at5_v31_of m ρ c _ (at4_v18 m ρ c)

/-! ## After the last region: the two results -/

/-- The features are an input of the last region, which leaves them as it found them. -/
theorem result_feats : W6 m ρ c (Proc.devRef .tc main_v31)
    = feats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((W6_arr m ρ c 0).trans (((dat2 (V5 m ρ) c).arrAt_in 0 rfl _).trans (A_eq2 (V5 m ρ) c 0))).trans (at5_v31 m ρ c)

/-- The last region's output: the soft assignment of the features to the centres. -/
theorem result_assign : W6 m ρ c (Proc.devRef .tc main_v32)
    = assign (feats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)) := by
  refine (W6_arr m ρ c 2).trans ?_
  rw [Cert.Gcn.Region2.region2_array (V5 m ρ) c]
  show assign (W5 m ρ c (Proc.devRef .tc main_v31)) (W5 m ρ c (Proc.devRef .tc main_arg7)) = _
  rw [at5_v31, at5_arg7]
  rfl

end Cert.Gcn.Boundary

end
-- ==== Proof.AssignLaw.lean ====
/-
  The one law between the two programs' soft assignment that is not a matter of reading indices: squaring by a
  product against raising to the power two.

  A reciprocal `1 / d` on the extended reals is never the junk value `⊥`: it is `⊤` at `d = 0` (the numerator is
  positive), `0` at `d = ±∞`, and the real reciprocal otherwise. On a real `x`, `x ^ 2` is `x · x` whatever the sign
  of `x`; at `⊤` both the power (a positive exponent) and the product are `⊤`. So the power two of a reciprocal is its
  product with itself for EVERY extended real `d`, with no finiteness assumption.
-/
import proofs.«125401_j46634754900398_2_alg».proof.Proof.Spec

noncomputable section

namespace Cert.Gcn

open Idealize.ShloMosaic

/-- The f32 word `0x3F800000` denotes the real `1`. -/
theorem one_eq : one = 1 := by
  simp [one, Ideal.ofBits, Ideal.ieee, -EReal.coe_mul]; norm_num

/-- The f32 word `0x40000000` denotes the real `2`. -/
theorem two_eq : two = ((2 : ℝ) : EReal) := by
  simp [two, Ideal.ofBits, Ideal.ieee, -EReal.coe_mul]; norm_num

/-- A reciprocal of `1` is never `⊥`. -/
theorem div_one_ne_bot (d : EReal) : Ideal.div 1 d ≠ ⊥ := by
  unfold Ideal.div
  by_cases h : d = 0
  · simp [h]
  · rw [if_neg h, one_mul]
    induction d using EReal.rec with
    | bot => simp
    | coe r => rw [← EReal.coe_inv]; exact EReal.coe_ne_bot _
    | top => simp

/-- The power two of an extended real other than `⊥` is its product with itself. -/
theorem pow_two_of_ne_bot (x : EReal) (hx : x ≠ ⊥) : Ideal.pow x ((2 : ℝ) : EReal) = x * x := by
  induction x using EReal.rec with
  | bot => exact absurd rfl hx
  | coe r =>
    show ((Real.rpow r 2 : ℝ) : EReal) = (r : EReal) * (r : EReal)
    rw [← EReal.coe_mul]
    congr 1
    show r ^ (2 : ℝ) = r * r
    rw [Real.rpow_two, sq]
  | top =>
    show (if (0 : EReal) < ((2 : ℝ) : EReal) then (⊤ : EReal) else _) = ⊤ * ⊤
    rw [if_pos (by exact_mod_cast (two_pos : (0 : ℝ) < 2))]
    simp

/-- Raising the reciprocal `1 / d` to the power `2.0` is multiplying it by itself, at every extended real `d`. -/
theorem pow_two_recip (d : EReal) :
    Ideal.pow (Ideal.div one d) two = Ideal.div one d * Ideal.div one d := by
  rw [two_eq]
  exact pow_two_of_ne_bot _ (by rw [one_eq]; exact div_one_ne_bot d)

end Cert.Gcn

end
-- ==== Proof.RefAssign.lean ====
/-
  The reference's last thirty operations are the soft assignment of the specification.

  Read one operation at a time, entry `[r, j]` of the reference's result is
  `kern' (sqd r j) / (0 + ∑ j', kern' (sqd r j'))` where the squared distance is built from `0 + ∑ k, z[r,k]²`,
  `0 + ∑ k, mu[j,k]²` and `2 · ∑ k, z[r,k] · muᵀ[k,j]`, and `kern'` squares the reciprocal by raising it to the power
  `2.0`. The zeros are the sums' initial values and vanish; the transpose reads `mu[j,k]`; the power two of a
  reciprocal is its product with itself. What is left is `assign z mu`, with `z` the array the second propagation
  wrote, which is never opened here.
-/
import proofs.«125401_j46634754900398_2_alg».proof.Proof.Spec
import proofs.«125401_j46634754900398_2_alg».proof.Proof.AssignLaw
import proofs.«125401_j46634754900398_2_alg».proof.Proof.Gen.ReferenceIdeal.Read

noncomputable section

namespace Cert.Gcn.RefAssign

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-! ## Where each layout operation reads -/

/-- The row sum of `z²`, seen through its two broadcasts, runs over row `r` of `z`. -/
theorem idx_zz (r : Fin 100000) (j : Fin 10) (k : Fin 64) :
    idx_main_v40 (idx_main_v41 (idx_main_v45 (ix2 r j))) k = ix2 r k :=
  funext fun a => Fin.ext (by match a with | ⟨0, _⟩ => rfl | ⟨1, _⟩ => rfl)

/-- The row sum of `mu²`, seen through its two broadcasts, runs over row `j` of `mu`. -/
theorem idx_mm (r : Fin 100000) (j : Fin 10) (k : Fin 64) :
    idx_main_v43 (idx_main_v44 (idx_main_v46 (ix2 r j))) k = ix2 j k :=
  funext fun a => Fin.ext (by match a with | ⟨0, _⟩ => rfl | ⟨1, _⟩ => rfl)

/-- The product's left factor at `[r, j]`, term `k`, is `z[r, k]`. -/
theorem idx_lhs (r : Fin 100000) (j : Fin 10) (k : Fin 64) : lidx_main_v49 (ix2 r j) k = ix2 r k :=
  funext fun a => Fin.ext (by match a with | ⟨0, _⟩ => rfl | ⟨1, _⟩ => rfl)

/-- The product's right factor at `[r, j]`, term `k`, is the transpose at `[k, j]`, that is `mu[j, k]`. -/
theorem idx_rhs (r : Fin 100000) (j : Fin 10) (k : Fin 64) : idx_main_v48 (ridx_main_v49 (ix2 r j) k) = ix2 j k :=
  funext fun a => Fin.ext (by match a with | ⟨0, _⟩ => rfl | ⟨1, _⟩ => rfl)

/-- The normalising sum at `[r, j]`, seen through its two broadcasts, runs over row `r` of the kernels. -/
theorem idx_norm (r : Fin 100000) (j j' : Fin 10) :
    idx_main_v65 (idx_main_v66 (idx_main_v67 (ix2 r j))) j' = ix2 r j' :=
  funext fun a => Fin.ext (by match a with | ⟨0, _⟩ => rfl | ⟨1, _⟩ => rfl)

/-! ## The unnormalised kernel, one entry -/

section
variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S128x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal)) (x7 : (⟨S10x64, .f32⟩ : BufTy).Contents (Elt Ideal))

/-- Entry `[r, j]` of the reference's squared distance is the specification's `sqd`. -/
theorem ref_sqd (r : Fin 100000) (j : Fin 10) :
    val_main_v52 (F := Ideal) x0 x1 x2 x3 x4 x5 x6 x7 (ix2 r j)
      = sqd (val_main_v38 (F := Ideal) x0 x1 x2 x3 x4 x5 x6) x7 r j := by
  rw [val_main_v52_apply, val_main_v47_apply, val_main_v45_apply, val_main_v41_apply, val_main_v40_apply,
    val_main_v46_apply, val_main_v44_apply, val_main_v43_apply, val_main_v51_apply, val_main_v50_apply,
    val_main_v49_apply, val_main_cst_4_apply, val_main_cst_5_apply, val_main_cst_6_apply]
  have e1 : (∑ k : Fin 64, val_main_v39 (F := Ideal) x0 x1 x2 x3 x4 x5 x6 (idx_main_v40 (idx_main_v41 (idx_main_v45 (ix2 r j))) k))
      = ∑ k : Fin 64, val_main_v38 (F := Ideal) x0 x1 x2 x3 x4 x5 x6 (ix2 r k) * val_main_v38 (F := Ideal) x0 x1 x2 x3 x4 x5 x6 (ix2 r k) :=
    Finset.sum_congr rfl fun k _ => by rw [idx_zz, val_main_v39_apply]; rfl
  have e2 : (∑ k : Fin 64, val_main_v42 (F := Ideal) x7 (idx_main_v43 (idx_main_v44 (idx_main_v46 (ix2 r j))) k))
      = ∑ k : Fin 64, x7 (ix2 j k) * x7 (ix2 j k) :=
    Finset.sum_congr rfl fun k _ => by rw [idx_mm, val_main_v42_apply]; rfl
  have e3 : (∑ k : Fin 64, val_main_v38 (F := Ideal) x0 x1 x2 x3 x4 x5 x6 (lidx_main_v49 (ix2 r j) k) * val_main_v48 (F := Ideal) x7 (ridx_main_v49 (ix2 r j) k))
      = ∑ k : Fin 64, val_main_v38 (F := Ideal) x0 x1 x2 x3 x4 x5 x6 (ix2 r k) * x7 (ix2 j k) :=
    Finset.sum_congr rfl fun k _ => by rw [idx_lhs, val_main_v48_apply, idx_rhs]
  rw [e1, e2, e3]
  have h0 : (FloatOps.ofBits (F := Ideal) .f32 0x00000000#32 : EReal) = 0 := Ideal.ofBits_zero_f32
  rw [h0, zero_add, zero_add]
  rfl

/-- Entry `[r, j]` of the reference's unnormalised kernel is the specification's `kern` of the squared distance. -/
theorem ref_kern (r : Fin 100000) (j : Fin 10) :
    val_main_v64 (F := Ideal) x0 x1 x2 x3 x4 x5 x6 x7 (ix2 r j)
      = kern (sqd (val_main_v38 (F := Ideal) x0 x1 x2 x3 x4 x5 x6) x7 r j) := by
  rw [val_main_v64_apply, val_main_v62_apply, val_main_v60_apply, val_main_v58_apply, val_main_v56_apply,
    val_main_v54_apply, ref_sqd, val_main_v63_apply, val_main_v61_apply, val_main_v59_apply, val_main_v57_apply,
    val_main_v55_apply, val_main_v53_apply, val_main_cst_7_apply, val_main_cst_8_apply, val_main_cst_9_apply,
    val_main_cst_10_apply, val_main_cst_11_apply, val_main_cst_12_apply]
  generalize sqd (val_main_v38 (F := Ideal) x0 x1 x2 x3 x4 x5 x6) x7 r j = s
  unfold kern
  rw [← pow_two_recip]
  rfl

/-- The reference's result is the soft assignment of the second propagation's array to the centres. -/
theorem ref_assign :
    val_main_v68 (F := Ideal) x0 x1 x2 x3 x4 x5 x6 x7
      = assign (val_main_v38 (F := Ideal) x0 x1 x2 x3 x4 x5 x6) x7 := by
  funext i
  obtain ⟨r, j, rfl⟩ : ∃ (r : Fin 100000) (j : Fin 10), i = ix2 r j := ⟨i 0, i 1, eq_ix2 i⟩
  rw [val_main_v68_apply, val_main_v67_apply, val_main_v66_apply, val_main_v65_apply, val_main_cst_13_apply, ref_kern]
  have e : (∑ k : Fin 10, val_main_v64 (F := Ideal) x0 x1 x2 x3 x4 x5 x6 x7 (idx_main_v65 (idx_main_v66 (idx_main_v67 (ix2 r j))) k))
      = ∑ j' : Fin 10, kern (sqd (val_main_v38 (F := Ideal) x0 x1 x2 x3 x4 x5 x6) x7 r j') :=
    Finset.sum_congr rfl fun j' _ => by rw [idx_norm, ref_kern]
  have h0 : (FloatOps.ofBits (F := Ideal) .f32 0x00000000#32 : EReal) = 0 := Ideal.ofBits_zero_f32
  rw [e, h0, zero_add]
  rfl

end

end Cert.Gcn.RefAssign

end
-- ==== Proof.lean ====
/-
  A two-layer graph convolution with a Student-t soft assignment, as three tiled regions among host operations, against
  the same computation written with whole-array operations.

  Both programs compute, on the extended reals,
      feats  = P (max (P (x · W1 + b1)) 0 · W2 + b2)        and        assign = kern (sqd feats mu) / Σ kern (sqd feats mu),
  where `P` is the propagation along the edges (gather the source rows, scale by the edge weight, add into the
  destination rows). The tiled program computes each dense layer and the assignment 5000 rows at a time; a row's sums
  do not depend on which block of rows it is computed in, and narrowing an operand before a product changes nothing
  on the extended reals (Region0, Region1, Region2). The propagation is the same host operations in both programs, so
  it is carried as one function (Propagate) applied to equal features. The one place the two differ in form is the
  square in the Student-t kernel — a product in one, the power 2.0 in the other — and these agree at every extended
  real because a reciprocal of one is never the junk value the power function fixes (AssignLaw). No finiteness of the
  inputs is used: every step is a reading of indices, a shared function, or that law.

  The three frames: the two tiled programs' are the generated ones; the whole-array program's is its generated run with
  the results dropped. The idealization rewrote no operation, so there is nothing to preserve.
-/
import proofs.«125401_j46634754900398_2_alg».proof.Defs
import proofs.«125401_j46634754900398_2_alg».proof.Proof.Gen.Kernel
import proofs.«125401_j46634754900398_2_alg».proof.Proof.Gen.Kernel.Frame
import proofs.«125401_j46634754900398_2_alg».proof.Proof.Gen.KernelIdeal
import proofs.«125401_j46634754900398_2_alg».proof.Proof.Gen.KernelIdeal.Frame
import proofs.«125401_j46634754900398_2_alg».proof.Proof.Gen.ReferenceIdeal
import proofs.«125401_j46634754900398_2_alg».proof.Proof.Gen.ReferenceIdeal.Run
import proofs.«125401_j46634754900398_2_alg».proof.Proof.Gen.ReferenceIdeal.Read
import proofs.«125401_j46634754900398_2_alg».proof.Proof.Gen.Pre_finite_inputs
import proofs.«125401_j46634754900398_2_alg».proof.Proof.KernelRun
import proofs.«125401_j46634754900398_2_alg».proof.Proof.Boundary
import proofs.«125401_j46634754900398_2_alg».proof.Proof.Propagate
import proofs.«125401_j46634754900398_2_alg».proof.Proof.RefAssign
import Idealize.ShloMosaic.Adequacy
import Idealize.ShloMosaic.Init

set_option maxRecDepth 16384

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The whole-array program's frame: its run, with what it says of the two results dropped. -/
theorem frame_referenceIdeal : Cert.frame_ReferenceIdeal :=
  fun m ρ _ => (θ_run Cert.ReferenceIdeal.defs _ _).mono (fun _ h c => (h c).2.2)
    (Cert.ReferenceIdeal.Value.run (F := Ideal) m ρ)

/-- Both programs end with the features and their soft assignment, as the same functions of arguments that agree. -/
theorem algebraic :
    Cert.algebraic_KernelIdeal_ReferenceIdeal := by
  intro m ρ m' ρ' _ hagree
  refine ⟨fun c => Cert.Gcn.feats (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Gcn.assign (Cert.Gcn.feats (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.GenP.run_named (F := Ideal) m ρ)
    obtain ⟨h31, h32, hargs⟩ := h c
    exact ⟨h31.trans (Cert.Gcn.Boundary.result_feats m ρ c), h32.trans (Cert.Gcn.Boundary.result_assign m ρ c), hargs⟩
  · refine (θ_run Cert.ReferenceIdeal.defs _ _).mono (fun r h c => ?_) (Cert.ReferenceIdeal.Value.run (F := Ideal) m' ρ')
    obtain ⟨h38, h68, hargs⟩ := h c
    obtain ⟨a0, a1, a2, a3, a4, a5, a6, a7⟩ := hagree c
    refine ⟨h38.trans ?_, h68.trans ?_, hargs⟩
    · refine ((Cert.ReferenceIdeal.Read.val_main_v38_eq _ _ _ _ _ _ _).trans (Cert.Gcn.ref_feats _ _ _ _ _ _ _)).trans ?_
      rw [a0, a1, a2, a3, a4, a5, a6]
    · refine ((Cert.ReferenceIdeal.Read.val_main_v68_eq m' c).trans (Cert.Gcn.RefAssign.ref_assign _ _ _ _ _ _ _ _)).trans ?_
      rw [Cert.Gcn.ref_feats, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
